-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S2000000 : Shape := ⟨1, ![2000000]⟩
abbrev S2000000x3x3 : Shape := ⟨3, ![2000000, 3, 3]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S2000000x3x3 : S_.BroadcastsInDim S2000000x3x3 (![] : Fin 0 → Fin S2000000x3x3.rank)
  reducesTo_S2000000x3x3_S_d0_1_2 : S2000000x3x3.ReducesTo [0, 1, 2] S_

variable [Facts]

def fn_part1 {F : FTy → Type} [FloatOps F] (main_arg4 : FVec F S2000000x3x3 .f32) (main_v13 : IVec S_ 1) (main_v16 : IVec S2000000x3x3 1) : IVec S_ 1 :=
  let main_c_5 : IVec S_ 1 := constantI S_ 1 1#1
  let main_v17 : IVec S_ 1 := (fun x v => Host.reduce IntOp.andi x v reducesTo_S2000000x3x3_S_d0_1_2 h_S_) main_v16 main_c_5
  let main_v18 : IVec S_ 1 := andi main_v13 main_v17
  let main_v19 : FVec F S2000000x3x3 .f32 := Host.absf main_arg4
  let main_cst_6 : FVec F S_ .f32 := constant S_ .f32 0x7F800000#32
  let main_v20 : FVec F S2000000x3x3 .f32 := broadcastInDim S2000000x3x3 ![] bcast_S_S2000000x3x3 main_cst_6
  let main_v21 : IVec S2000000x3x3 1 := cmpf .olt main_v19 main_v20
  let main_c_7 : IVec S_ 1 := constantI S_ 1 1#1
  let main_v22 : IVec S_ 1 := (fun x v => Host.reduce IntOp.andi x v reducesTo_S2000000x3x3_S_d0_1_2 h_S_) main_v21 main_c_7
  let main_v23 : IVec S_ 1 := andi main_v18 main_v22
  main_v23

def fn {F : FTy → Type} [FloatOps F] (main_arg0 : FVec F S2000000x3 .f32) (main_arg1 : FVec F S2000000x3 .f32) (main_arg2 : FVec F S2000000 .f32) (main_arg3 : FVec F S2000000x3x3 .f32) (main_arg4 : FVec F S2000000x3x3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  let main_v14 : FVec F S2000000x3x3 .f32 := Host.absf main_arg3
  let main_cst_4 : FVec F S_ .f32 := constant S_ .f32 0x7F800000#32
  let main_v15 : FVec F S2000000x3x3 .f32 := broadcastInDim S2000000x3x3 ![] bcast_S_S2000000x3x3 main_cst_4
  let main_v16 : IVec S2000000x3x3 1 := cmpf .olt main_v14 main_v15
  fn_part1 (F := F) main_arg4 main_v13 main_v16
-- ==== Kernel.lean ====
abbrev S2000000x3 : Shape := ⟨2, ![2000000, 3]⟩
abbrev S2000000 : Shape := ⟨1, ![2000000]⟩
abbrev S2000000x3x3 : Shape := ⟨3, ![2000000, 3, 3]⟩
abbrev S2000000x9 : Shape := ⟨2, ![2000000, 9]⟩
abbrev S2000000x4 : Shape := ⟨2, ![2000000, 4]⟩
abbrev S5000x9 : Shape := ⟨2, ![5000, 9]⟩
abbrev S5000x3 : Shape := ⟨2, ![5000, 3]⟩
abbrev S5000x4 : Shape := ⟨2, ![5000, 4]⟩
abbrev S9x5000 : Shape := ⟨2, ![9, 5000]⟩
abbrev S3x5000 : Shape := ⟨2, ![3, 5000]⟩
abbrev S1x5000 : Shape := ⟨2, ![1, 5000]⟩
abbrev S4x5000 : Shape := ⟨2, ![4, 5000]⟩

abbrev nBuf : Space → Nat
  | .hbm => 10
  | .vmem => 10
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S2000000, .f32⟩
  | .hbm, ⟨3, _⟩ => ⟨S2000000x3x3, .f32⟩
  | .hbm, ⟨4, _⟩ => ⟨S2000000x3x3, .f32⟩
  | .hbm, ⟨5, _⟩ => ⟨S2000000x9, .f32⟩
  | .hbm, ⟨6, _⟩ => ⟨S2000000x9, .f32⟩
  | .hbm, ⟨7, _⟩ => ⟨S2000000x9, .f32⟩
  | .hbm, ⟨8, _⟩ => ⟨S2000000x4, .f32⟩
  | .hbm, ⟨9, _⟩ => ⟨S2000000x3x3, .f32⟩
  | .local _ .vmem, ⟨0, _⟩ => ⟨S5000x9, .f32⟩
  | .local _ .vmem, ⟨1, _⟩ => ⟨S5000x9, .f32⟩
  | .local _ .vmem, ⟨2, _⟩ => ⟨S5000x9, .f32⟩
  | .local _ .vmem, ⟨3, _⟩ => ⟨S5000x9, .f32⟩
  | .local _ .vmem, ⟨4, _⟩ => ⟨S5000x3, .f32⟩
  | .local _ .vmem, ⟨5, _⟩ => ⟨S5000x3, .f32⟩
  | .local _ .vmem, ⟨6, _⟩ => ⟨S5000x9, .f32⟩
  | .local _ .vmem, ⟨7, _⟩ => ⟨S5000x9, .f32⟩
  | .local _ .vmem, ⟨8, _⟩ => ⟨S5000x4, .f32⟩
  | .local _ .vmem, ⟨9, _⟩ => ⟨S5000x4, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2000000x3x3_S2000000x9 : S2000000x3x3.ShapeCasts S2000000x9
  inb_S5000x9_S5000x9_0_0 : ∀ a, (![0, 0] : Fin 2 → Nat) a + S5000x9.size a ≤ S5000x9.size a
  h_S5000x9 : 0 < S5000x9.numel
  shapeCasts_S5000x9_S5000x9 : S5000x9.ShapeCasts S5000x9
  transposes_S5000x9_p1_0_S9x5000 : S5000x9.Transposes [1, 0] S9x5000
  inb_S5000x3_S5000x3_0_0 : ∀ a, (![0, 0] : Fin 2 → Nat) a + S5000x3.size a ≤ S5000x3.size a
  h_S5000x3 : 0 < S5000x3.numel
  transposes_S5000x3_p1_0_S3x5000 : S5000x3.Transposes [1, 0] S3x5000
  slices_S9x5000_o0_0_S1x5000 : S9x5000.Slices ![0, 0] S1x5000
  slices_S9x5000_o1_0_S1x5000 : S9x5000.Slices ![1, 0] S1x5000
  slices_S9x5000_o2_0_S1x5000 : S9x5000.Slices ![2, 0] S1x5000
  slices_S9x5000_o3_0_S1x5000 : S9x5000.Slices ![3, 0] S1x5000
  slices_S9x5000_o4_0_S1x5000 : S9x5000.Slices ![4, 0] S1x5000
  slices_S9x5000_o5_0_S1x5000 : S9x5000.Slices ![5, 0] S1x5000
  slices_S9x5000_o6_0_S1x5000 : S9x5000.Slices ![6, 0] S1x5000
  slices_S9x5000_o7_0_S1x5000 : S9x5000.Slices ![7, 0] S1x5000
  slices_S9x5000_o8_0_S1x5000 : S9x5000.Slices ![8, 0] S1x5000
  concatenates_S1x5000_S1x5000_S1x5000_S1x5000_S1x5000_S1x5000_S1x5000_S1x5000_S1x5000_S9x5000_d0 : Shape.Concatenates [S1x5000, S1x5000, S1x5000, S1x5000, S1x5000, S1x5000, S1x5000, S1x5000, S1x5000] S9x5000 0
  transposes_S9x5000_p1_0_S5000x9 : S9x5000.Transposes [1, 0] S5000x9
  slices_S3x5000_o0_0_S1x5000 : S3x5000.Slices ![0, 0] S1x5000
  slices_S3x5000_o1_0_S1x5000 : S3x5000.Slices ![1, 0] S1x5000
  slices_S3x5000_o2_0_S1x5000 : S3x5000.Slices ![2, 0] S1x5000
  concatenates_S1x5000_S1x5000_S1x5000_S1x5000_S4x5000_d0 : Shape.Concatenates [S1x5000, S1x5000, S1x5000, S1x5000] S4x5000 0
  transposes_S4x5000_p1_0_S5000x4 : S4x5000.Transposes [1, 0] S5000x4
  inb_S5000x4_S5000x4_0_0 : ∀ a, (![0, 0] : Fin 2 → Nat) a + S5000x4.size a ≤ S5000x4.size a
  h_S5000x4 : 0 < S5000x4.numel
  shapeCasts_S2000000x9_S2000000x3x3 : S2000000x9.ShapeCasts S2000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x9.size a ≤ S2000000x9.size a
  hwx0_0 : ∀ i : grid0.Coords, EltTy.bits .f32 = 32 ∨ (Rect.block (s := S2000000x9) S5000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x9.size a ≤ S2000000x9.size a
  hwx0_1 : ∀ i : grid0.Coords, EltTy.bits .f32 = 32 ∨ (Rect.block (s := S2000000x9) S5000x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x3.size a ≤ S2000000x3.size a
  hwx0_2 : ∀ i : grid0.Coords, EltTy.bits .f32 = 32 ∨ (Rect.block (s := S2000000x3) S5000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x9.size a ≤ S2000000x9.size a
  hwx0_3 : ∀ i : grid0.Coords, EltTy.bits .f32 = 32 ∨ (Rect.block (s := S2000000x9) S5000x9.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x4.size a ≤ S2000000x4.size a
  hwx0_4 : ∀ i : grid0.Coords, EltTy.bits .f32 = 32 ∨ (Rect.block (s := S2000000x4) S5000x4.size (cc0_transform_4 i) (hinb0_4 i)).WholeWords (EltTy.packing .f32)

variable [Facts₀]

abbrev win0_0 : Pipeline.Window sig grid0 :=
  Pipeline.Window.ofSpec (Memref.whole main_v0) S5000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S5000x9.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S5000x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x3 : Shape := ⟨2, ![2000000, 3]⟩
abbrev S2000000 : Shape := ⟨1, ![2000000]⟩
abbrev S2000000x3x3 : Shape := ⟨3, ![2000000, 3, 3]⟩
abbrev S2000000x1 : Shape := ⟨2, ![2000000, 1]⟩
abbrev S_ : Shape := ⟨0, ![]⟩
abbrev S2000000x4 : Shape := ⟨2, ![2000000, 4]⟩

abbrev nBuf : Space → Nat
  | .hbm => 24
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S2000000x3, .f32⟩
  | .hbm, ⟨2, _⟩ => ⟨S2000000, .f32⟩
  | .hbm, ⟨3, _⟩ => ⟨S2000000x3x3, .f32⟩
  | .hbm, ⟨4, _⟩ => ⟨S2000000x3x3, .f32⟩
  | .hbm, ⟨5, _⟩ => ⟨S2000000x3x3, .f32⟩
  | .hbm, ⟨6, _⟩ => ⟨S2000000x3x3, .f32⟩
  | .hbm, ⟨7, _⟩ => ⟨S2000000x3x3, .f32⟩
  | .hbm, ⟨8, _⟩ => ⟨S2000000x1, .f32⟩
  | .hbm, ⟨9, _⟩ => ⟨S_, .f32⟩
  | .hbm, ⟨10, _⟩ => ⟨S2000000x1, .f32⟩
  | .hbm, ⟨11, _⟩ => ⟨S2000000x1, .f32⟩
  | .hbm, ⟨12, _⟩ => ⟨S_, .f32⟩
  | .hbm, ⟨13, _⟩ => ⟨S2000000x1, .f32⟩
  | .hbm, ⟨14, _⟩ => ⟨S2000000x1, .f32⟩
  | .hbm, ⟨15, _⟩ => ⟨S2000000x1, .f32⟩
  | .hbm, ⟨16, _⟩ => ⟨S_, .f32⟩
  | .hbm, ⟨17, _⟩ => ⟨S2000000x1, .f32⟩
  | .hbm, ⟨18, _⟩ => ⟨S2000000x1, .f32⟩
  | .hbm, ⟨19, _⟩ => ⟨S2000000x1, .f32⟩
  | .hbm, ⟨20, _⟩ => ⟨S_, .f32⟩
  | .hbm, ⟨21, _⟩ => ⟨S2000000x1, .f32⟩
  | .hbm, ⟨22, _⟩ => ⟨S2000000x1, .f32⟩
  | .hbm, ⟨23, _⟩ => ⟨S2000000x4, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  slices_S2000000x3_S2000000x1_0_0 : S2000000x3.Slices ![0, 0] S2000000x1
  bcast_S_S2000000x1 : S_.BroadcastsInDim S2000000x1 (![] : Fin 0 → Fin S2000000x1.rank)
  slices_S2000000x3_S2000000x1_0_1 : S2000000x3.Slices ![0, 1] S2000000x1
  slices_S2000000x3_S2000000x1_0_2 : S2000000x3.Slices ![0, 2] S2000000x1
  concatenates_S2000000x1_S2000000x1_S2000000x1_S2000000x1_S2000000x4_d1 : Shape.Concatenates [S2000000x1, S2000000x1, S2000000x1, S2000000x1] S2000000x4 1
  dot_S2000000x3x3_S2000000x3x3_S2000000x3x3_2_2_1_1_0_0_wf : DotDims.WF S2000000x3x3 S2000000x3x3 S2000000x3x3 [2] [2] [1] [1] [0] [0]
  dot_S2000000x3x3_S2000000x3x3_S2000000x3x3_1_2_2_1_0_0_wf : DotDims.WF S2000000x3x3 S2000000x3x3 S2000000x3x3 [1] [2] [2] [1] [0] [0]

variable [Facts₀]

def dot_S2000000x3x3_S2000000x3x3_S2000000x3x3_2_2_1_1_0_0 : DotDims S2000000x3x3 S2000000x3x3 S2000000x3x3 where
  lhsContracting := [2]
  rhsContracting := [2]
  lhsNonContracting := [1]
  rhsNonContracting := [1]
  lhsBatch := [0]
  rhsBatch := [0]
  wf := dot_S2000000x3x3_S2000000x3x3_S2000000x3x3_2_2_1_1_0_0_wf
def dot_S2000000x3x3_S2000000x3x3_S2000000x3x3_1_2_2_1_0_0 : DotDims S2000000x3x3 S2000000x3x3 S2000000x3x3 where
  lhsContracting := [1]
  rhsContracting := [2]
  lhsNonContracting := [2]
  rhsNonContracting := [1]
  lhsBatch := [0]
  rhsBatch := [0]
  wf := dot_S2000000x3x3_S2000000x3x3_S2000000x3x3_1_2_2_1_0_0_wf

class Facts : Prop extends Facts₀ where

variable [Facts]
-- ==== Proof.PointMath.lean ====
/-
  The mathematics of one point, with no program in sight.

  A point carries a rotation-like matrix R and a scale-like matrix S, both 3×3 over the extended reals. Its
  covariance is R (S Sᵀ) Rᵀ, associated as (R (S Sᵀ)) Rᵀ and written entry by entry as three nested sums over
  `Fin 3`. Its four colour coefficients are a constant followed by channels 1, 0 and 2 of the colour, each times
  one fixed factor. Nothing here needs the entries to be finite: the two spellings of the covariance that meet in
  this certificate differ only by the order of the two factors of a product, and multiplication of extended reals
  commutes everywhere, infinities included.

  A 3×3 matrix stored as nine consecutive numbers has entry (a, b) at position 3a + b (`flat`); `rowOf` and
  `colOf` go back.
-/
import Idealize.ShloMosaic.PureOps.Ideal
import Idealize.ShloMosaic.Lib.ValueIdx

noncomputable section

namespace Cert.PointMath

/-- Entry (j, k) of S Sᵀ: the inner product of rows j and k of S. -/
def gram (S : Fin 3 → Fin 3 → EReal) (j k : Fin 3) : EReal := ∑ a : Fin 3, S j a * S k a

/-- Entry (i, l) of (R (S Sᵀ)) Rᵀ: first T = R (S Sᵀ), entry (i, k) the sum over j of R i j · (S Sᵀ) j k; then the
    sum over k of T i k · R l k. -/
def cov (R S : Fin 3 → Fin 3 → EReal) (i l : Fin 3) : EReal :=
  ∑ k : Fin 3, (∑ j : Fin 3, R i j * gram S j k) * R l k

/-- The same entry with the factors of T's products in the other order, (S Sᵀ) j k · R i j: the products commute,
    term by term, and nothing else differs. -/
theorem cov_of_swapped (R S : Fin 3 → Fin 3 → EReal) (i l : Fin 3) :
    (∑ k : Fin 3, (∑ j : Fin 3, gram S j k * R i j) * R l k) = cov R S i l :=
  Finset.sum_congr rfl fun k _ =>
    congrArg (· * R l k) (Finset.sum_congr rfl fun j _ => mul_comm (gram S j k) (R i j))

/-- The inner product of two rows, its three terms written out and added left to right. -/
theorem gram_three (S : Fin 3 → Fin 3 → EReal) (j k : Fin 3) :
    gram S j k = S j 0 * S k 0 + S j 1 * S k 1 + S j 2 * S k 2 := Fin.sum_univ_three _

/-- The covariance entry, both sums written out and added left to right. -/
theorem cov_three (R S : Fin 3 → Fin 3 → EReal) (i l : Fin 3) :
    cov R S i l
      = (R i 0 * gram S 0 0 + R i 1 * gram S 1 0 + R i 2 * gram S 2 0) * R l 0
        + (R i 0 * gram S 0 1 + R i 1 * gram S 1 1 + R i 2 * gram S 2 1) * R l 1
        + (R i 0 * gram S 0 2 + R i 1 * gram S 1 2 + R i 2 * gram S 2 2) * R l 2 := by
  unfold cov
  rw [Fin.sum_univ_three, Fin.sum_univ_three, Fin.sum_univ_three, Fin.sum_univ_three]

/-- Where entry (a, b) of a 3×3 matrix sits among its nine numbers laid out row by row. -/
def flat (a b : Fin 3) : Fin 9 := ⟨3 * a.val + b.val, by omega⟩

/-- The row of the entry at position k. -/
def rowOf (k : Fin 9) : Fin 3 := ⟨k.val / 3, by omega⟩

/-- The column of the entry at position k. -/
def colOf (k : Fin 9) : Fin 3 := ⟨k.val % 3, by omega⟩

theorem rowOf_flat (a b : Fin 3) : rowOf (flat a b) = a := Fin.ext (by show (3 * a.val + b.val) / 3 = a.val; omega)

theorem colOf_flat (a b : Fin 3) : colOf (flat a b) = b := Fin.ext (by show (3 * a.val + b.val) % 3 = b.val; omega)

theorem flat_rowOf_colOf (k : Fin 9) : flat (rowOf k) (colOf k) = k :=
  Fin.ext (by show 3 * (k.val / 3) + k.val % 3 = k.val; omega)

theorem flat_val (a b : Fin 3) : (flat a b).val = 3 * a.val + b.val := rfl

/-- The four colour coefficients of a colour (c 0, c 1, c 2): the constant `k0`, then channels 1, 0, 2 times `k1`. -/
def coeffs (k0 k1 : EReal) (c : Fin 3 → EReal) : Fin 4 → EReal := ![k0, c 1 * k1, c 0 * k1, c 2 * k1]

end Cert.PointMath

end
-- ==== Proof.ArrayMath.lean ====
/-
  The results as whole arrays, still with no program in sight.

  Two layouts of "one 3×3 matrix per point" meet in this certificate: [2000000, 3, 3], and [2000000, 9] with each
  matrix laid out row by row along the nine columns. Changing between them keeps every number's position in the
  row-major order, and entry (a, b) of point n's matrix is column 3a + b of row n. `covMats` is the covariance of
  every point in the first layout, `covRows` in the second, and `covRows_relayout` says that going to rows,
  taking covariances there and coming back is `covMats`: at each point the same two matrices enter
  `PointMath.cov`.

  `shRows` is the [2000000, 4] array of colour coefficients of a [2000000, 3] array of colours.
-/
import proofs.«129054_j12000138625130_2_alg».proof.Proof.PointMath
import Idealize.ShloMosaic.Lib.ValueIdx
import Idealize.ShloMosaic.Lib.Pipeline.Value

noncomputable section

open Idealize.ShloMosaic Idealize.ShloMosaic.ValueIdx

namespace Cert.ArrayMath

open Cert.PointMath

/-- One 3×3 matrix per point. -/
abbrev Mats : Shape := ⟨3, ![2000000, 3, 3]⟩
/-- One matrix per point, its nine entries along a row. -/
abbrev Nines : Shape := ⟨2, ![2000000, 9]⟩
/-- One colour per point. -/
abbrev Threes : Shape := ⟨2, ![2000000, 3]⟩
/-- Four coefficients per point. -/
abbrev Fours : Shape := ⟨2, ![2000000, 4]⟩

/-! ## Covariances -/

/-- The covariance of every point, matrices and result nine numbers to a row. -/
def covRows (Rf Sf : Nines.Idx → EReal) : Nines.Idx → EReal := fun j =>
  cov (fun a b => Rf (ix2 (⟨(j 0).val, (j 0).isLt⟩ : Fin 2000000) (flat a b)))
    (fun a b => Sf (ix2 (⟨(j 0).val, (j 0).isLt⟩ : Fin 2000000) (flat a b)))
    (rowOf ⟨(j 1).val, (j 1).isLt⟩) (colOf ⟨(j 1).val, (j 1).isLt⟩)

theorem covRows_apply (Rf Sf : Nines.Idx → EReal) (n : Fin 2000000) (k : Fin 9) :
    covRows Rf Sf (ix2 n k)
      = cov (fun a b => Rf (ix2 n (flat a b))) (fun a b => Sf (ix2 n (flat a b))) (rowOf k) (colOf k) := rfl

/-- The covariance of every point, matrices and result as [2000000, 3, 3]. -/
def covMats (R S : Mats.Idx → EReal) : Mats.Idx → EReal := fun j =>
  cov (fun a b => R (ix3 (⟨(j 0).val, (j 0).isLt⟩ : Fin 2000000) a b))
    (fun a b => S (ix3 (⟨(j 0).val, (j 0).isLt⟩ : Fin 2000000) a b))
    ⟨(j 1).val, (j 1).isLt⟩ ⟨(j 2).val, (j 2).isLt⟩

theorem covMats_apply (R S : Mats.Idx → EReal) (n : Fin 2000000) (i l : Fin 3) :
    covMats R S (ix3 n i l) = cov (fun a b => R (ix3 n a b)) (fun a b => S (ix3 n a b)) i l := rfl

/-- Matrices relaid as rows: column 3a + b of row n is entry (a, b) of point n's matrix (both sit at position
    9n + 3a + b of the row-major order). -/
theorem asRows_apply (X : Mats.Idx → EReal) (h : Mats.ShapeCasts Nines) (n : Fin 2000000) (a b : Fin 3) :
    shapeCast Nines X h (ix2 n (flat a b)) = X (ix3 n a b) :=
  shapeCast_apply X h _ _ (by
    rw [Shape.rowMajor_val_three, Shape.rowMajor_val_two]
    show (n.val * 3 + a.val) * 3 + b.val = n.val * 9 + (3 * a.val + b.val)
    omega)

/-- Rows relaid as matrices: the other direction. -/
theorem asMats_apply (Y : Nines.Idx → EReal) (h : Nines.ShapeCasts Mats) (n : Fin 2000000) (i l : Fin 3) :
    shapeCast Mats Y h (ix3 n i l) = Y (ix2 n (flat i l)) :=
  shapeCast_apply Y h _ _ (by
    rw [Shape.rowMajor_val_two, Shape.rowMajor_val_three]
    show n.val * 9 + (3 * i.val + l.val) = (n.val * 3 + i.val) * 3 + l.val
    omega)

/-- Relay both inputs as rows, take every point's covariance there, relay the result as matrices: that is every
    point's covariance taken on the matrices. -/
theorem covRows_relayout (R S : Mats.Idx → EReal) (h : Mats.ShapeCasts Nines) (h' : Nines.ShapeCasts Mats) :
    shapeCast Mats (covRows (shapeCast Nines R h) (shapeCast Nines S h)) h' = covMats R S := by
  funext j
  obtain ⟨n, i, l, rfl⟩ : ∃ (n : Fin 2000000) (i l : Fin 3), j = ix3 n i l := ⟨j 0, j 1, j 2, eq_ix3 j⟩
  rw [asMats_apply, covRows_apply, rowOf_flat, colOf_flat, covMats_apply]
  simp only [asRows_apply]

/-! ## Colour coefficients -/

/-- The constant of the first coefficient, as the extended real its bit pattern denotes. -/
abbrev band0 : EReal := FloatOps.ofBits (F := Ideal) .f32 0x3E906EC1#32

/-- The factor of the other three coefficients, as the extended real its bit pattern denotes. -/
abbrev band1 : EReal := FloatOps.ofBits (F := Ideal) .f32 0x3EFA2A2C#32

/-- The four coefficients of every point's colour. -/
def shRows (C : Threes.Idx → EReal) : Fours.Idx → EReal := fun j =>
  coeffs band0 band1 (fun b => C (ix2 (⟨(j 0).val, (j 0).isLt⟩ : Fin 2000000) b)) ⟨(j 1).val, (j 1).isLt⟩

theorem shRows_apply (C : Threes.Idx → EReal) (n : Fin 2000000) (k : Fin 4) :
    shRows C (ix2 n k) = coeffs band0 band1 (fun b => C (ix2 n b)) k := rfl

end Cert.ArrayMath

end
-- ==== Proof.BlockCov.lean ====
/-
  What the idealized kernel's body leaves in the covariance block, entry by entry.

  The body loads a [5000, 9] block of R and one of S (one point per row, a 3×3 matrix laid out row by row along the
  nine columns), turns each so that the points lie along the lanes, and from then on works on single rows of 5000
  lanes: the nine entries of S Sᵀ, the nine of T = R (S Sᵀ), the nine of T Rᵀ, each a sum of three products of rows,
  added left to right. The nine result rows are stacked and turned back, so entry (p, k) of the stored block is
  row k at lane p. Every operation on the way acts lane by lane, so at lane p the whole computation is the
  covariance of the two matrices found in row p of the loaded blocks, written exactly as `PointMath.cov` writes it.
-/
import proofs.«129054_j12000138625130_2_alg».proof.Proof.Gen.KernelIdeal.Frame
import proofs.«129054_j12000138625130_2_alg».proof.Proof.PointMath
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Block

open Cert.KernelIdeal Cert.KernelIdeal.Gen Cert.PointMath

/-- The offsets of a rectangle that starts at the origin of a matrix. -/
theorem origin2 : (![0, 0] : Fin 2 → Nat) = fun _ => 0 := funext fun a => by fin_cases a <;> rfl

/-! ## Rows of a value with the points along the lanes -/

/-- Row `k` of a nine-row value, cut out as a one-row matrix, holds at lane `p` the value's entry (k, p). -/
theorem cut9 (v : FVec Ideal S9x5000 .f32) (o : Nat) (h : S9x5000.Slices ![o, 0] S1x5000) (k : Fin 9) (hk : k.val = o)
    (p : Fin 5000) : extractStridedSlice S1x5000 ![o, 0] v h (ix2 (0 : Fin 1) p) = v (ix2 k p) :=
  slice2_axis0_apply o v h (0 : Fin 1) p k (by rw [hk]; rfl)

theorem cut9_0 (v : FVec Ideal S9x5000 .f32) (h : S9x5000.Slices ![0, 0] S1x5000) (p : Fin 5000) :
    extractStridedSlice S1x5000 ![0, 0] v h (ix2 (0 : Fin 1) p) = v (ix2 (0 : Fin 9) p) := cut9 v 0 h 0 rfl p
theorem cut9_1 (v : FVec Ideal S9x5000 .f32) (h : S9x5000.Slices ![1, 0] S1x5000) (p : Fin 5000) :
    extractStridedSlice S1x5000 ![1, 0] v h (ix2 (0 : Fin 1) p) = v (ix2 (1 : Fin 9) p) := cut9 v 1 h 1 rfl p
theorem cut9_2 (v : FVec Ideal S9x5000 .f32) (h : S9x5000.Slices ![2, 0] S1x5000) (p : Fin 5000) :
    extractStridedSlice S1x5000 ![2, 0] v h (ix2 (0 : Fin 1) p) = v (ix2 (2 : Fin 9) p) := cut9 v 2 h 2 rfl p
theorem cut9_3 (v : FVec Ideal S9x5000 .f32) (h : S9x5000.Slices ![3, 0] S1x5000) (p : Fin 5000) :
    extractStridedSlice S1x5000 ![3, 0] v h (ix2 (0 : Fin 1) p) = v (ix2 (3 : Fin 9) p) := cut9 v 3 h 3 rfl p
theorem cut9_4 (v : FVec Ideal S9x5000 .f32) (h : S9x5000.Slices ![4, 0] S1x5000) (p : Fin 5000) :
    extractStridedSlice S1x5000 ![4, 0] v h (ix2 (0 : Fin 1) p) = v (ix2 (4 : Fin 9) p) := cut9 v 4 h 4 rfl p
theorem cut9_5 (v : FVec Ideal S9x5000 .f32) (h : S9x5000.Slices ![5, 0] S1x5000) (p : Fin 5000) :
    extractStridedSlice S1x5000 ![5, 0] v h (ix2 (0 : Fin 1) p) = v (ix2 (5 : Fin 9) p) := cut9 v 5 h 5 rfl p
theorem cut9_6 (v : FVec Ideal S9x5000 .f32) (h : S9x5000.Slices ![6, 0] S1x5000) (p : Fin 5000) :
    extractStridedSlice S1x5000 ![6, 0] v h (ix2 (0 : Fin 1) p) = v (ix2 (6 : Fin 9) p) := cut9 v 6 h 6 rfl p
theorem cut9_7 (v : FVec Ideal S9x5000 .f32) (h : S9x5000.Slices ![7, 0] S1x5000) (p : Fin 5000) :
    extractStridedSlice S1x5000 ![7, 0] v h (ix2 (0 : Fin 1) p) = v (ix2 (7 : Fin 9) p) := cut9 v 7 h 7 rfl p
theorem cut9_8 (v : FVec Ideal S9x5000 .f32) (h : S9x5000.Slices ![8, 0] S1x5000) (p : Fin 5000) :
    extractStridedSlice S1x5000 ![8, 0] v h (ix2 (0 : Fin 1) p) = v (ix2 (8 : Fin 9) p) := cut9 v 8 h 8 rfl p

/-- The loaded R block turned so that points lie along the lanes: entry (k, p) is the block's entry (p, k). -/
theorem turnedR_apply (x : Vec Ideal S5000x9 .f32) (k : Fin 9) (p : Fin 5000) : k0_pay3 x (ix2 k p) = x (ix2 p k) := by
  unfold k0_pay3
  rw [shapeCast_self]
  exact transpose_ix2_apply x transposes_S5000x9_p1_0_S9x5000 k p

/-- The loaded S block turned the same way. -/
theorem turnedS_apply (x : Vec Ideal S5000x9 .f32) (k : Fin 9) (p : Fin 5000) : k0_pay4 x (ix2 k p) = x (ix2 p k) := by
  unfold k0_pay4
  rw [shapeCast_self]
  exact transpose_ix2_apply x transposes_S5000x9_p1_0_S9x5000 k p

/-! ## Nine rows stacked and turned back -/

/-- One of nine things, by position. -/
def pick9 {α : Type} (v0 v1 v2 v3 v4 v5 v6 v7 v8 : α) : Fin 9 → α
  | ⟨0, _⟩ => v0 | ⟨1, _⟩ => v1 | ⟨2, _⟩ => v2 | ⟨3, _⟩ => v3 | ⟨4, _⟩ => v4
  | ⟨5, _⟩ => v5 | ⟨6, _⟩ => v6 | ⟨7, _⟩ => v7 | ⟨8, _⟩ => v8

/-- Nine one-row values stacked into a nine-row value and turned so that points lie along the rows again: entry
    (p, k) is row `k` at lane `p`. -/
theorem stack9_apply (v0 v1 v2 v3 v4 v5 v6 v7 v8 : FVec Ideal S1x5000 .f32) (p : Fin 5000) (k : Fin 9) :
    transpose S5000x9 [1, 0]
        (concatenate S9x5000 0 [⟨S1x5000, v0⟩, ⟨S1x5000, v1⟩, ⟨S1x5000, v2⟩, ⟨S1x5000, v3⟩, ⟨S1x5000, v4⟩, ⟨S1x5000, v5⟩,
          ⟨S1x5000, v6⟩, ⟨S1x5000, v7⟩, ⟨S1x5000, v8⟩]
          concatenates_S1x5000_S1x5000_S1x5000_S1x5000_S1x5000_S1x5000_S1x5000_S1x5000_S1x5000_S9x5000_d0)
        transposes_S9x5000_p1_0_S5000x9 (ix2 p k)
      = pick9 v0 v1 v2 v3 v4 v5 v6 v7 v8 k (ix2 (0 : Fin 1) p) := by
  refine (transpose_ix2_apply _ transposes_S9x5000_p1_0_S5000x9 p k).trans ?_
  have side : ∀ (q : Fin 9) (b : Fin S1x5000.rank), b.cast (rfl : S1x5000.rank = S9x5000.rank) ≠ (0 : Fin S9x5000.rank) →
      ((ix2 (0 : Fin 1) p : S1x5000.Idx) b).val = ((ix2 q p : S9x5000.Idx) (b.cast rfl)).val := fun q b hb => by
    match b with
    | ⟨0, _⟩ => exact absurd rfl hb
    | ⟨1, _⟩ => rfl
  match k with
  | ⟨0, hk⟩ => refine concatenate_apply_piece 0 _ _ (ix2 ⟨0, hk⟩ p) 0 ?_ S1x5000 v0 ?_ rfl 0 ?_ (ix2 (0 : Fin 1) p) (side ⟨0, hk⟩) ?_ <;> first | rfl | simp
  | ⟨1, hk⟩ => refine concatenate_apply_piece 0 _ _ (ix2 ⟨1, hk⟩ p) 1 ?_ S1x5000 v1 ?_ rfl 1 ?_ (ix2 (0 : Fin 1) p) (side ⟨1, hk⟩) ?_ <;> first | rfl | simp
  | ⟨2, hk⟩ => refine concatenate_apply_piece 0 _ _ (ix2 ⟨2, hk⟩ p) 2 ?_ S1x5000 v2 ?_ rfl 2 ?_ (ix2 (0 : Fin 1) p) (side ⟨2, hk⟩) ?_ <;> first | rfl | simp
  | ⟨3, hk⟩ => refine concatenate_apply_piece 0 _ _ (ix2 ⟨3, hk⟩ p) 3 ?_ S1x5000 v3 ?_ rfl 3 ?_ (ix2 (0 : Fin 1) p) (side ⟨3, hk⟩) ?_ <;> first | rfl | simp
  | ⟨4, hk⟩ => refine concatenate_apply_piece 0 _ _ (ix2 ⟨4, hk⟩ p) 4 ?_ S1x5000 v4 ?_ rfl 4 ?_ (ix2 (0 : Fin 1) p) (side ⟨4, hk⟩) ?_ <;> first | rfl | simp
  | ⟨5, hk⟩ => refine concatenate_apply_piece 0 _ _ (ix2 ⟨5, hk⟩ p) 5 ?_ S1x5000 v5 ?_ rfl 5 ?_ (ix2 (0 : Fin 1) p) (side ⟨5, hk⟩) ?_ <;> first | rfl | simp
  | ⟨6, hk⟩ => refine concatenate_apply_piece 0 _ _ (ix2 ⟨6, hk⟩ p) 6 ?_ S1x5000 v6 ?_ rfl 6 ?_ (ix2 (0 : Fin 1) p) (side ⟨6, hk⟩) ?_ <;> first | rfl | simp
  | ⟨7, hk⟩ => refine concatenate_apply_piece 0 _ _ (ix2 ⟨7, hk⟩ p) 7 ?_ S1x5000 v7 ?_ rfl 7 ?_ (ix2 (0 : Fin 1) p) (side ⟨7, hk⟩) ?_ <;> first | rfl | simp
  | ⟨8, hk⟩ => refine concatenate_apply_piece 0 _ _ (ix2 ⟨8, hk⟩ p) 8 ?_ S1x5000 v8 ?_ rfl 8 ?_ (ix2 (0 : Fin 1) p) (side ⟨8, hk⟩) ?_ <;> first | rfl | simp

/-! ## The covariance block -/

/-- Entry (p, k) of the block the body stores into the covariance window: the covariance of the two matrices found
    in row `p` of the loaded R and S blocks, at the row and column that position `k` names. Row `k` of the stack is
    picked out, every row operation is read at lane `p`, and what is left is `PointMath.cov` with its sums written
    out, term for term. -/
theorem cov_block_at (x0 x1 : Vec Ideal S5000x9 .f32) (x2 : Vec Ideal S5000x3 .f32) (p : Fin 5000) (k : Fin 9) :
    out0_3 x0 x1 x2 (ix2 p k)
      = cov (fun a b => x0 (ix2 p (flat a b))) (fun a b => x1 (ix2 p (flat a b))) (rowOf k) (colOf k) := by
  unfold out0_3
  rw [View.canon_unit_zero origin2]
  simp only [View.ld_unit_zero (S := S5000x9) origin2]
  unfold k0_pay1
  refine (stack9_apply _ _ _ _ _ _ _ _ _ p k).trans ?_
  rw [cov_three]
  simp only [gram_three]
  fin_cases k <;>
    simp only [pick9, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35,
      addf_apply, mulf_apply, cut9_0, cut9_1, cut9_2, cut9_3, cut9_4, cut9_5, cut9_6, cut9_7, cut9_8,
      turnedR_apply, turnedS_apply] <;>
    rfl

/-- The same with the position given by its row and column. -/
theorem cov_block (x0 x1 : Vec Ideal S5000x9 .f32) (x2 : Vec Ideal S5000x3 .f32) (p : Fin 5000) (i l : Fin 3) :
    out0_3 x0 x1 x2 (ix2 p (flat i l))
      = cov (fun a b => x0 (ix2 p (flat a b))) (fun a b => x1 (ix2 p (flat a b))) i l := by
  rw [cov_block_at, rowOf_flat, colOf_flat]

end Cert.KernelIdeal.Block

end
-- ==== Proof.BlockSh.lean ====
/-
  What the idealized kernel's body leaves in the colour-coefficients block, entry by entry.

  The body loads a [5000, 3] block of colours (one point per row), turns it so that the points lie along the lanes,
  and builds four rows of 5000 lanes: a constant row, then channel 1, channel 0 and channel 2 of the colour, each
  times one fixed factor. The four rows are stacked and turned back, so entry (p, k) of the stored block is row k at
  lane p: coefficient k of the colour found in row p of the loaded block.
-/
import proofs.«129054_j12000138625130_2_alg».proof.Proof.Gen.KernelIdeal.Frame
import proofs.«129054_j12000138625130_2_alg».proof.Proof.PointMath
import proofs.«129054_j12000138625130_2_alg».proof.Proof.ArrayMath
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.BlockSh

open Cert.KernelIdeal Cert.KernelIdeal.Gen Cert.PointMath Cert.ArrayMath

/-- The offsets of a rectangle that starts at the origin of a matrix. -/
theorem origin : (![0, 0] : Fin 2 → Nat) = fun _ => 0 := funext fun a => by fin_cases a <;> rfl

/-- Row `k` of a three-row value, cut out as a one-row matrix, holds at lane `p` the value's entry (k, p). -/
theorem cut3 (v : FVec Ideal S3x5000 .f32) (o : Nat) (h : S3x5000.Slices ![o, 0] S1x5000) (k : Fin 3) (hk : k.val = o)
    (p : Fin 5000) : extractStridedSlice S1x5000 ![o, 0] v h (ix2 (0 : Fin 1) p) = v (ix2 k p) :=
  slice2_axis0_apply o v h (0 : Fin 1) p k (by rw [hk]; rfl)

theorem cut3_0 (v : FVec Ideal S3x5000 .f32) (h : S3x5000.Slices ![0, 0] S1x5000) (p : Fin 5000) :
    extractStridedSlice S1x5000 ![0, 0] v h (ix2 (0 : Fin 1) p) = v (ix2 (0 : Fin 3) p) := cut3 v 0 h 0 rfl p
theorem cut3_1 (v : FVec Ideal S3x5000 .f32) (h : S3x5000.Slices ![1, 0] S1x5000) (p : Fin 5000) :
    extractStridedSlice S1x5000 ![1, 0] v h (ix2 (0 : Fin 1) p) = v (ix2 (1 : Fin 3) p) := cut3 v 1 h 1 rfl p
theorem cut3_2 (v : FVec Ideal S3x5000 .f32) (h : S3x5000.Slices ![2, 0] S1x5000) (p : Fin 5000) :
    extractStridedSlice S1x5000 ![2, 0] v h (ix2 (0 : Fin 1) p) = v (ix2 (2 : Fin 3) p) := cut3 v 2 h 2 rfl p

/-- The loaded colour block turned so that points lie along the lanes: entry (k, p) is the block's entry (p, k). -/
theorem turnedC_apply (x : Vec Ideal S5000x3 .f32) (k : Fin 3) (p : Fin 5000) : k0_pay5 x (ix2 k p) = x (ix2 p k) := by
  unfold k0_pay5
  exact transpose_ix2_apply x transposes_S5000x3_p1_0_S3x5000 k p

/-- One of four things, by position. -/
def pick4 {α : Type} (v0 v1 v2 v3 : α) : Fin 4 → α
  | ⟨0, _⟩ => v0 | ⟨1, _⟩ => v1 | ⟨2, _⟩ => v2 | ⟨3, _⟩ => v3

/-- Four one-row values stacked into a four-row value and turned so that points lie along the rows again: entry
    (p, k) is row `k` at lane `p`. -/
theorem stack4_apply (v0 v1 v2 v3 : FVec Ideal S1x5000 .f32) (p : Fin 5000) (k : Fin 4) :
    transpose S5000x4 [1, 0]
        (concatenate S4x5000 0 [⟨S1x5000, v0⟩, ⟨S1x5000, v1⟩, ⟨S1x5000, v2⟩, ⟨S1x5000, v3⟩]
          concatenates_S1x5000_S1x5000_S1x5000_S1x5000_S4x5000_d0)
        transposes_S4x5000_p1_0_S5000x4 (ix2 p k)
      = pick4 v0 v1 v2 v3 k (ix2 (0 : Fin 1) p) := by
  refine (transpose_ix2_apply _ transposes_S4x5000_p1_0_S5000x4 p k).trans ?_
  have side : ∀ (q : Fin 4) (b : Fin S1x5000.rank), b.cast (rfl : S1x5000.rank = S4x5000.rank) ≠ (0 : Fin S4x5000.rank) →
      ((ix2 (0 : Fin 1) p : S1x5000.Idx) b).val = ((ix2 q p : S4x5000.Idx) (b.cast rfl)).val := fun q b hb => by
    match b with
    | ⟨0, _⟩ => exact absurd rfl hb
    | ⟨1, _⟩ => rfl
  match k with
  | ⟨0, hk⟩ => refine concatenate_apply_piece 0 _ _ (ix2 ⟨0, hk⟩ p) 0 ?_ S1x5000 v0 ?_ rfl 0 ?_ (ix2 (0 : Fin 1) p) (side ⟨0, hk⟩) ?_ <;> first | rfl | simp
  | ⟨1, hk⟩ => refine concatenate_apply_piece 0 _ _ (ix2 ⟨1, hk⟩ p) 1 ?_ S1x5000 v1 ?_ rfl 1 ?_ (ix2 (0 : Fin 1) p) (side ⟨1, hk⟩) ?_ <;> first | rfl | simp
  | ⟨2, hk⟩ => refine concatenate_apply_piece 0 _ _ (ix2 ⟨2, hk⟩ p) 2 ?_ S1x5000 v2 ?_ rfl 2 ?_ (ix2 (0 : Fin 1) p) (side ⟨2, hk⟩) ?_ <;> first | rfl | simp
  | ⟨3, hk⟩ => refine concatenate_apply_piece 0 _ _ (ix2 ⟨3, hk⟩ p) 3 ?_ S1x5000 v3 ?_ rfl 3 ?_ (ix2 (0 : Fin 1) p) (side ⟨3, hk⟩) ?_ <;> first | rfl | simp

/-- Entry (p, k) of the block the body stores into the coefficients window: coefficient `k` of the colour found in
    row `p` of the loaded colour block. -/
theorem sh_block (x0 x1 : Vec Ideal S5000x9 .f32) (x2 : Vec Ideal S5000x3 .f32) (p : Fin 5000) (k : Fin 4) :
    out0_4 x0 x1 x2 (ix2 p k) = coeffs band0 band1 (fun b => x2 (ix2 p b)) k := by
  unfold out0_4
  rw [View.canon_unit_zero origin]
  simp only [View.ld_unit_zero (S := S5000x3) origin]
  unfold k0_pay2
  refine (stack4_apply _ _ _ _ p k).trans ?_
  fin_cases k <;>
    simp only [pick4, mulf_apply, broadcast_apply, cut3_0, cut3_1, cut3_2, turnedC_apply] <;>
    rfl

end Cert.KernelIdeal.BlockSh

end
-- ==== Proof.KernelValue.lean ====
/-
  What the idealized kernel's program leaves in its four results.

  The program relays R and S from [2000000, 3, 3] to [2000000, 9], runs one region over 400 grid points, and relays
  the region's first output back to [2000000, 3, 3]. Point t works on rows 5000 t … 5000 t + 4999 of every array:
  it reads those rows of the relaid R, the relaid S and the colours, and writes those rows of the two outputs.

  Row p of the block a point writes depends only on row p of the blocks it reads (`BlockCov`, `BlockSh`), so what
  point t writes back is block t of ONE function of the arrays the region finds: `ArrayMath.covRows` of the relaid
  R and S for the first output, `ArrayMath.shRows` of the colours for the second. The 400 blocks cover every row
  (row r lies in block r / 5000), so after the region the two output arrays ARE those functions. The relayout
  before and after the region then turns `covRows` into `covMats` of R and S themselves
  (`ArrayMath.covRows_relayout`). Positions and alphas are never touched.
-/
import proofs.«129054_j12000138625130_2_alg».proof.Proof.Gen.KernelIdeal.Frame
import proofs.«129054_j12000138625130_2_alg».proof.Proof.ArrayMath
import proofs.«129054_j12000138625130_2_alg».proof.Proof.BlockCov
import proofs.«129054_j12000138625130_2_alg».proof.Proof.BlockSh
import Idealize.ShloMosaic.Lib.ValueIdx
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.PointMath Cert.ArrayMath

variable (m : (ℓ : Loc nD τ sig) → Buf (Elt Ideal) ℓ) (ρ : Dev nD → PrngReg)

/-! ## Where each point's blocks sit -/

/-- At point t every window is on block t along the point axis and on its only block along the other. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- There are 400 points. -/
theorem point_lt (t : Fin cfg0.N) : t.val < 400 := lt_of_lt_of_eq (show t.val < grid0.N from t.isLt) N_0

/-- Entry (p, k) of the R block at point t is entry (5000 t + p, k) of the relaid R the region finds. -/
theorem blockR_apply (c : Dev nD) (t : Fin cfg0.N) (p : Fin 5000) (k : Fin 9) (n : Fin 2000000)
    (hn : n.val = 5000 * t.val + p.val) :
    (iblk m c 0 t : Vec Ideal S5000x9 .f32) (ix2 p k) = (V m c main_v0 : S2000000x9.Idx → EReal) (ix2 n k) := by
  obtain ⟨e0, e1, -⟩ := block_index t
  unfold iblk
  rw [View.read_apply]
  show V m c main_v0 (((cfg0.win 0).blk t).view.emb (ix2 p k)) = V m c main_v0 (ix2 n k)
  refine congrArg (V m c main_v0) (funext fun a => Fin.ext ?_)
  match a with
  | ⟨0, _⟩ => show win0_0.index t (0 : Fin 2) * 5000 + 1 * p.val = n.val; rw [e0, hn]; omega
  | ⟨1, _⟩ => show win0_0.index t (1 : Fin 2) * 9 + 1 * k.val = k.val; rw [e1]; omega

/-- The same for the S block and the relaid S. -/
theorem blockS_apply (c : Dev nD) (t : Fin cfg0.N) (p : Fin 5000) (k : Fin 9) (n : Fin 2000000)
    (hn : n.val = 5000 * t.val + p.val) :
    (iblk m c 1 t : Vec Ideal S5000x9 .f32) (ix2 p k) = (V m c main_v1 : S2000000x9.Idx → EReal) (ix2 n k) := by
  obtain ⟨-, -, e0, e1, -⟩ := block_index t
  unfold iblk
  rw [View.read_apply]
  show V m c main_v1 (((cfg0.win 1).blk t).view.emb (ix2 p k)) = V m c main_v1 (ix2 n k)
  refine congrArg (V m c main_v1) (funext fun a => Fin.ext ?_)
  match a with
  | ⟨0, _⟩ => show win0_1.index t (0 : Fin 2) * 5000 + 1 * p.val = n.val; rw [e0, hn]; omega
  | ⟨1, _⟩ => show win0_1.index t (1 : Fin 2) * 9 + 1 * k.val = k.val; rw [e1]; omega

/-- The same for the colour block and the colours. -/
theorem blockC_apply (c : Dev nD) (t : Fin cfg0.N) (p : Fin 5000) (k : Fin 3) (n : Fin 2000000)
    (hn : n.val = 5000 * t.val + p.val) :
    (iblk m c 2 t : Vec Ideal S5000x3 .f32) (ix2 p k) = (V m c main_arg1 : S2000000x3.Idx → EReal) (ix2 n k) := by
  obtain ⟨-, -, -, -, e0, e1, -⟩ := block_index t
  unfold iblk
  rw [View.read_apply]
  show V m c main_arg1 (((cfg0.win 2).blk t).view.emb (ix2 p k)) = V m c main_arg1 (ix2 n k)
  refine congrArg (V m c main_arg1) (funext fun a => Fin.ext ?_)
  match a with
  | ⟨0, _⟩ => show win0_2.index t (0 : Fin 2) * 5000 + 1 * p.val = n.val; rw [e0, hn]; omega
  | ⟨1, _⟩ => show win0_2.index t (1 : Fin 2) * 3 + 1 * k.val = k.val; rw [e1]; omega

/-! ## The covariance output -/

/-- What point t writes back into the covariance output is block t of every point's covariance, taken on the relaid
    R and S the region finds. -/
theorem flushedCov_eq (c : Dev nD) (t : Fin cfg0.N) :
    (dats m 0 c).flushed 3 t
      = ((cfg0.win 3).blk t).view.read (Elt Ideal) (covRows (V m c main_v0) (V m c main_v1)) := by
  show (cfg0.win 3).cut (grid0.coords t) ((dats m 0 c).after 3 t) = _
  rw [after0_3]
  obtain ⟨-, -, -, -, -, -, e0, e1, -⟩ := block_index t
  have ht : t.val < 400 := point_lt t
  funext y
  obtain ⟨p, k, rfl⟩ : ∃ (p : Fin 5000) (k : Fin 9), y = ix2 p k := ⟨y 0, y 1, eq_ix2 y⟩
  have hp : p.val < 5000 := p.isLt
  obtain ⟨n, hn⟩ : ∃ n : Fin 2000000, n.val = 5000 * t.val + p.val := ⟨⟨5000 * t.val + p.val, by omega⟩, rfl⟩
  have hemb : ((cfg0.win 3).blk t).view.emb (ix2 p k) = (ix2 n k : S2000000x9.Idx) := funext fun a => Fin.ext (by
    match a with
    | ⟨0, _⟩ => show win0_3.index t (0 : Fin 2) * 5000 + 1 * p.val = n.val; rw [e0, hn]; omega
    | ⟨1, _⟩ => show win0_3.index t (1 : Fin 2) * 9 + 1 * k.val = k.val; rw [e1]; omega)
  show out0_3 (iblk m c 0 t) (iblk m c 1 t) (iblk m c 2 t) (ix2 p k)
    = covRows (V m c main_v0) (V m c main_v1) (((cfg0.win 3).blk t).view.emb (ix2 p k))
  rw [hemb, covRows_apply]
  refine (Block.cov_block_at (iblk m c 0 t) (iblk m c 1 t) (iblk m c 2 t) p k).trans ?_
  have hR : (fun a b => (iblk m c 0 t : Vec Ideal S5000x9 .f32) (ix2 p (flat a b)))
      = fun a b => (V m c main_v0 : S2000000x9.Idx → EReal) (ix2 n (flat a b)) :=
    funext fun a => funext fun b => blockR_apply m c t p (flat a b) n hn
  have hS : (fun a b => (iblk m c 1 t : Vec Ideal S5000x9 .f32) (ix2 p (flat a b)))
      = fun a b => (V m c main_v1 : S2000000x9.Idx → EReal) (ix2 n (flat a b)) :=
    funext fun a => funext fun b => blockS_apply m c t p (flat a b) n hn
  rw [hR, hS]

/-- An index of the covariance output is in point t's block iff each coordinate is in the block's range. -/
theorem mem_blockCov (t : Fin cfg0.N) (i : S2000000x9.Idx) :
    i ∈ ((cfg0.win 3).blk t).view.set ↔ ∀ a : Fin 2, win0_3.index t a * S5000x9.size a ≤ (i a).val
      ∧ (i a).val < win0_3.index t a * S5000x9.size a + S5000x9.size a := by
  show i ∈ ((View.whole main_v2_0).slice (win0_3.rect t)).set ↔ _
  rw [View.set_slice_whole, Rect.mem_set_unit]
  exact Iff.rfl

/-- Every row of the covariance output is in some point's block: row r in block r / 5000. -/
theorem coverCov (i : S2000000x9.Idx) :
    ∃ t : Fin cfg0.N, (cfg0.win 3).flush t = true ∧ i ∈ ((cfg0.win 3).blk t).view.set := by
  have h0 : (i 0).val < 2000000 := (i 0).isLt
  have h1 : (i 1).val < 9 := (i 1).isLt
  obtain ⟨t, ht⟩ : ∃ t : Fin cfg0.N, t.val = (i 0).val / 5000 :=
    ⟨⟨(i 0).val / 5000, by rw [show cfg0.N = 400 from N_0]; omega⟩, rfl⟩
  obtain ⟨-, -, -, -, -, -, e0, e1, -⟩ := block_index t
  refine ⟨t, flush0_3 t, ?_⟩
  rw [mem_blockCov]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 9 ≤ (i 1).val ∧ (i 1).val < win0_3.index t (1 : Fin 2) * 9 + 9
    rw [e1]; omega

/-- After the region the covariance output holds every point's covariance, taken on the relaid R and S. -/
theorem finalCov (c : Dev nD) :
    (dats m 0 c).arrAt 3 cfg0.N = covRows (V m c main_v0) (V m c main_v1) :=
  (dats m 0 c).arrAt_eq_of_cover 3 (covRows (V m c main_v0) (V m c main_v1)) (fun t _ => flushedCov_eq m c t) coverCov

/-! ## The coefficients output -/

/-- What point t writes back into the coefficients output is block t of every point's coefficients. -/
theorem flushedSh_eq (c : Dev nD) (t : Fin cfg0.N) :
    (dats m 0 c).flushed 4 t = ((cfg0.win 4).blk t).view.read (Elt Ideal) (shRows (V m c main_arg1)) := by
  show (cfg0.win 4).cut (grid0.coords t) ((dats m 0 c).after 4 t) = _
  rw [after0_4]
  obtain ⟨-, -, -, -, -, -, -, -, e0, e1⟩ := block_index t
  have ht : t.val < 400 := point_lt t
  funext y
  obtain ⟨p, k, rfl⟩ : ∃ (p : Fin 5000) (k : Fin 4), y = ix2 p k := ⟨y 0, y 1, eq_ix2 y⟩
  have hp : p.val < 5000 := p.isLt
  obtain ⟨n, hn⟩ : ∃ n : Fin 2000000, n.val = 5000 * t.val + p.val := ⟨⟨5000 * t.val + p.val, by omega⟩, rfl⟩
  have hemb : ((cfg0.win 4).blk t).view.emb (ix2 p k) = (ix2 n k : S2000000x4.Idx) := funext fun a => Fin.ext (by
    match a with
    | ⟨0, _⟩ => show win0_4.index t (0 : Fin 2) * 5000 + 1 * p.val = n.val; rw [e0, hn]; omega
    | ⟨1, _⟩ => show win0_4.index t (1 : Fin 2) * 4 + 1 * k.val = k.val; rw [e1]; omega)
  show out0_4 (iblk m c 0 t) (iblk m c 1 t) (iblk m c 2 t) (ix2 p k)
    = shRows (V m c main_arg1) (((cfg0.win 4).blk t).view.emb (ix2 p k))
  rw [hemb, shRows_apply]
  refine (BlockSh.sh_block (iblk m c 0 t) (iblk m c 1 t) (iblk m c 2 t) p k).trans ?_
  have hC : (fun b => (iblk m c 2 t : Vec Ideal S5000x3 .f32) (ix2 p b))
      = fun b => (V m c main_arg1 : S2000000x3.Idx → EReal) (ix2 n b) :=
    funext fun b => blockC_apply m c t p b n hn
  rw [hC]

/-- An index of the coefficients output is in point t's block iff each coordinate is in the block's range. -/
theorem mem_blockSh (t : Fin cfg0.N) (i : S2000000x4.Idx) :
    i ∈ ((cfg0.win 4).blk t).view.set ↔ ∀ a : Fin 2, win0_4.index t a * S5000x4.size a ≤ (i a).val
      ∧ (i a).val < win0_4.index t a * S5000x4.size a + S5000x4.size a := by
  show i ∈ ((View.whole main_v2_1).slice (win0_4.rect t)).set ↔ _
  rw [View.set_slice_whole, Rect.mem_set_unit]
  exact Iff.rfl

/-- Every row of the coefficients output is in some point's block. -/
theorem coverSh (i : S2000000x4.Idx) :
    ∃ t : Fin cfg0.N, (cfg0.win 4).flush t = true ∧ i ∈ ((cfg0.win 4).blk t).view.set := by
  have h0 : (i 0).val < 2000000 := (i 0).isLt
  have h1 : (i 1).val < 4 := (i 1).isLt
  obtain ⟨t, ht⟩ : ∃ t : Fin cfg0.N, t.val = (i 0).val / 5000 :=
    ⟨⟨(i 0).val / 5000, by rw [show cfg0.N = 400 from N_0]; omega⟩, rfl⟩
  obtain ⟨-, -, -, -, -, -, -, -, e0, e1⟩ := block_index t
  refine ⟨t, flush0_4 t, ?_⟩
  rw [mem_blockSh]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 4 ≤ (i 1).val ∧ (i 1).val < win0_4.index t (1 : Fin 2) * 4 + 4
    rw [e1]; omega

/-- After the region the coefficients output holds every point's coefficients of the colours as launched. -/
theorem finalSh (c : Dev nD) :
    (dats m 0 c).arrAt 4 cfg0.N = shRows (m ((c : Thread nD τ).loc main_arg1)) := by
  rw [← V_main_arg1 m c]
  exact (dats m 0 c).arrAt_eq_of_cover 4 (shRows (V m c main_arg1)) (fun t _ => flushedSh_eq m c t) coverSh

/-! ## The relayouts around the region -/

/-- The region finds, as its first operand, R as launched relaid to rows. -/
theorem enteredR (c : Dev nD) : (V m c main_v0 : S2000000x9.Idx → EReal)
    = shapeCast S2000000x9 (m ((c : Thread nD τ).loc main_arg3)) shapeCasts_S2000000x3x3_S2000000x9 := by
  show StableHlo.after hostOps0 (fun b => m (c, b)) (Proc.devRef .tc main_v0) = _
  after_results
  rfl

/-- And as its second, S as launched relaid to rows. -/
theorem enteredS (c : Dev nD) : (V m c main_v1 : S2000000x9.Idx → EReal)
    = shapeCast S2000000x9 (m ((c : Thread nD τ).loc main_arg4)) shapeCasts_S2000000x3x3_S2000000x9 := by
  show StableHlo.after hostOps0 (fun b => m (c, b)) (Proc.devRef .tc main_v1) = _
  after_results
  rfl

/-- The program's covariance result — the region's first output relaid to matrices — is every point's covariance
    of R and S as launched. -/
theorem resultCov (c : Dev nD) :
    Pipeline.afterTail₀ cfgs (dats m) 0 (V0 m) [hostOps1] c main_v3
      = covMats (m ((c : Thread nD τ).loc main_arg3)) (m ((c : Thread nD τ).loc main_arg4)) := by
  have hw := Pipeline.withArrays_arr spec0 launch0.win.arr_inj c (V0 m c) (fun w => (dats m 0 c).arrAt w (cfgs 0).N) 3
  have hrel := covRows_relayout (m ((c : Thread nD τ).loc main_arg3)) (m ((c : Thread nD τ).loc main_arg4))
    shapeCasts_S2000000x3x3_S2000000x9 shapeCasts_S2000000x9_S2000000x3x3
  rw [← hrel, ← enteredR m c, ← enteredS m c, ← finalCov m c]
  unfold Pipeline.afterTail₀
  show StableHlo.after hostOps1 _ (Proc.devRef .tc main_v3) = _
  after_results
  exact congrArg (fun X => shapeCast S2000000x3x3 X shapeCasts_S2000000x9_S2000000x3x3) hw

/-! ## The run, read -/

/-- Every weakly fair execution of the idealized kernel's program terminates with: positions as launched, every
    point's covariance, alphas as launched, every point's colour coefficients; and all five arguments as launched. -/
theorem run : θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v3)
          = covMats (m ((c : Thread nD τ).loc main_arg3)) (m ((c : Thread nD τ).loc main_arg4))
      ∧ r.2.mem ((c.tc : Thread nD τ).loc main_arg2) = m ((c.tc : Thread nD τ).loc main_arg2)
      ∧ r.2.mem ((c.tc : Thread nD τ).loc main_v2_1) = shRows (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_arg0 (Pipeline.mem_restRefs_of main_arg0 (by decide) (by decide))).trans (W_main_arg0 m (dats m) c),
      ((h c).2 main_v3 (Pipeline.mem_restRefs_of main_v3 (by decide) (by decide))).trans (resultCov m c),
      ((h c).2 main_arg2 (Pipeline.mem_restRefs_of main_arg2 (by decide) (by decide))).trans (W_main_arg2 m (dats m) c),
      ((h c).1 4).trans (finalSh m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arrays

end
-- ==== Proof.RefValue.lean ====
/-
  The idealized reference computes the two whole-array functions of `ArrayMath`.

  Its covariance is three contractions in a row. The first is S Sᵀ at every point: entry (j, k) the sum over a of
  S j a · S k a. The second contracts that matrix's FIRST index with R's second and leaves the result transposed:
  entry (k, i) the sum over j of (S Sᵀ) j k · R i j. The third contracts the first index again, with R's second:
  entry (i, l) the sum over k of the previous (k, i) · R l k. Written out, that is `PointMath.cov` with the two
  factors of the middle products in the other order (`cov_of_swapped`).

  Its colour coefficients are four one-column arrays laid side by side: a constant column, then channels 1, 0, 2 of
  the colour, each times the same factor.
-/
import proofs.«129054_j12000138625130_2_alg».proof.Proof.Gen.ReferenceIdeal.Read
import proofs.«129054_j12000138625130_2_alg».proof.Proof.ArrayMath
import Idealize.ShloMosaic.Lib.ValueIdx
import Idealize.ShloMosaic.Lib.Pipeline.Value

noncomputable section

open Idealize.ShloMosaic Idealize.ShloMosaic.ValueIdx

namespace Cert.ReferenceIdeal.RefValue

open Cert.ReferenceIdeal Cert.ReferenceIdeal.Gen Cert.ReferenceIdeal.Read Cert.PointMath Cert.ArrayMath

/-! ## Which entries each contraction multiplies -/

theorem left0 (n : Fin 2000000) (j k a : Fin 3) : lidx_main_v0 (ix3 n j k) a = ix3 n j a :=
  funext fun d => Fin.ext (by match d with | ⟨0, _⟩ => rfl | ⟨1, _⟩ => rfl | ⟨2, _⟩ => rfl)
theorem right0 (n : Fin 2000000) (j k a : Fin 3) : ridx_main_v0 (ix3 n j k) a = ix3 n k a :=
  funext fun d => Fin.ext (by match d with | ⟨0, _⟩ => rfl | ⟨1, _⟩ => rfl | ⟨2, _⟩ => rfl)
theorem left1 (n : Fin 2000000) (k i j : Fin 3) : lidx_main_v1 (ix3 n k i) j = ix3 n j k :=
  funext fun d => Fin.ext (by match d with | ⟨0, _⟩ => rfl | ⟨1, _⟩ => rfl | ⟨2, _⟩ => rfl)
theorem right1 (n : Fin 2000000) (k i j : Fin 3) : ridx_main_v1 (ix3 n k i) j = ix3 n i j :=
  funext fun d => Fin.ext (by match d with | ⟨0, _⟩ => rfl | ⟨1, _⟩ => rfl | ⟨2, _⟩ => rfl)
theorem left2 (n : Fin 2000000) (i l k : Fin 3) : lidx_main_v2 (ix3 n i l) k = ix3 n k i :=
  funext fun d => Fin.ext (by match d with | ⟨0, _⟩ => rfl | ⟨1, _⟩ => rfl | ⟨2, _⟩ => rfl)
theorem right2 (n : Fin 2000000) (i l k : Fin 3) : ridx_main_v2 (ix3 n i l) k = ix3 n l k :=
  funext fun d => Fin.ext (by match d with | ⟨0, _⟩ => rfl | ⟨1, _⟩ => rfl | ⟨2, _⟩ => rfl)

/-! ## The covariance -/

/-- The three contractions, at every point, are the covariance of that point's two matrices. -/
theorem cov_eq (x3 x4 : (⟨S2000000x3x3, .f32⟩ : BufTy).Contents (Elt Ideal)) :
    val_main_v2 (F := Ideal) x3 x4 = covMats x3 x4 := by
  funext j
  obtain ⟨n, i, l, rfl⟩ : ∃ (n : Fin 2000000) (i l : Fin 3), j = ix3 n i l := ⟨j 0, j 1, j 2, eq_ix3 j⟩
  rw [val_main_v2_apply, covMats_apply]
  simp only [left2, right2, val_main_v1_apply, left1, right1, val_main_v0_apply, left0, right0]
  exact cov_of_swapped (fun a b => x3 (ix3 n a b)) (fun a b => x4 (ix3 n a b)) i l

/-! ## The colour coefficients -/

/-- One of four things, by position. -/
def pick4 {α : Type} (v0 v1 v2 v3 : α) : Fin 4 → α
  | ⟨0, _⟩ => v0 | ⟨1, _⟩ => v1 | ⟨2, _⟩ => v2 | ⟨3, _⟩ => v3

/-- Four one-column arrays laid side by side: entry (n, k) is column `k`'s entry n. -/
theorem join4_apply (v0 v1 v2 v3 : FVec Ideal S2000000x1 .f32) (n : Fin 2000000) (k : Fin 4) :
    concatenate S2000000x4 1 [⟨S2000000x1, v0⟩, ⟨S2000000x1, v1⟩, ⟨S2000000x1, v2⟩, ⟨S2000000x1, v3⟩]
        concatenates_S2000000x1_S2000000x1_S2000000x1_S2000000x1_S2000000x4_d1 (ix2 n k)
      = pick4 v0 v1 v2 v3 k (ix2 n (0 : Fin 1)) := by
  have side : ∀ (q : Fin 4) (b : Fin S2000000x1.rank), b.cast (rfl : S2000000x1.rank = S2000000x4.rank) ≠ (1 : Fin S2000000x4.rank) →
      ((ix2 n (0 : Fin 1) : S2000000x1.Idx) b).val = ((ix2 n q : S2000000x4.Idx) (b.cast rfl)).val := fun q b hb => by
    match b with
    | ⟨0, _⟩ => rfl
    | ⟨1, _⟩ => exact absurd rfl hb
  match k with
  | ⟨0, hk⟩ => refine concatenate_apply_piece 1 _ _ (ix2 n ⟨0, hk⟩) 0 ?_ S2000000x1 v0 ?_ rfl 0 ?_ (ix2 n (0 : Fin 1)) (side ⟨0, hk⟩) ?_ <;> first | rfl | simp
  | ⟨1, hk⟩ => refine concatenate_apply_piece 1 _ _ (ix2 n ⟨1, hk⟩) 1 ?_ S2000000x1 v1 ?_ rfl 1 ?_ (ix2 n (0 : Fin 1)) (side ⟨1, hk⟩) ?_ <;> first | rfl | simp
  | ⟨2, hk⟩ => refine concatenate_apply_piece 1 _ _ (ix2 n ⟨2, hk⟩) 2 ?_ S2000000x1 v2 ?_ rfl 2 ?_ (ix2 n (0 : Fin 1)) (side ⟨2, hk⟩) ?_ <;> first | rfl | simp
  | ⟨3, hk⟩ => refine concatenate_apply_piece 1 _ _ (ix2 n ⟨3, hk⟩) 3 ?_ S2000000x1 v3 ?_ rfl 3 ?_ (ix2 n (0 : Fin 1)) (side ⟨3, hk⟩) ?_ <;> first | rfl | simp

/-- The one-column cut that starts at column 1, read at row n, is the colour array's entry (n, 1); likewise columns 0 and 2. -/
theorem column1 (n : Fin 2000000) : idx_main_v5 (ix2 n (0 : Fin 1)) = ix2 n (1 : Fin 3) :=
  funext fun d => Fin.ext (by match d with | ⟨0, _⟩ => rfl | ⟨1, _⟩ => rfl)
theorem column0 (n : Fin 2000000) : idx_main_v8 (ix2 n (0 : Fin 1)) = ix2 n (0 : Fin 3) :=
  funext fun d => Fin.ext (by match d with | ⟨0, _⟩ => rfl | ⟨1, _⟩ => rfl)
theorem column2 (n : Fin 2000000) : idx_main_v11 (ix2 n (0 : Fin 1)) = ix2 n (2 : Fin 3) :=
  funext fun d => Fin.ext (by match d with | ⟨0, _⟩ => rfl | ⟨1, _⟩ => rfl)

/-- The four columns, at every point, are the four coefficients of that point's colour. -/
theorem sh_eq (x1 : (⟨S2000000x3, .f32⟩ : BufTy).Contents (Elt Ideal)) :
    val_main_v14 (F := Ideal) x1 = shRows x1 := by
  funext j
  obtain ⟨n, k, rfl⟩ : ∃ (n : Fin 2000000) (k : Fin 4), j = ix2 n k := ⟨j 0, j 1, eq_ix2 j⟩
  rw [shRows_apply]
  unfold val_main_v14
  refine (join4_apply _ _ _ _ n k).trans ?_
  fin_cases k <;>
    simp only [pick4, val_main_v4_apply, val_main_cst_apply, val_main_v7_apply, val_main_v5_apply, val_main_v6_apply,
      val_main_cst_0_apply, val_main_v10_apply, val_main_v8_apply, val_main_v9_apply, val_main_cst_1_apply,
      val_main_v13_apply, val_main_v11_apply, val_main_v12_apply, val_main_cst_2_apply, column0, column1, column2] <;>
    rfl

end Cert.ReferenceIdeal.RefValue

end
-- ==== Proof.lean ====
/-
  A per-point covariance R (S Sᵀ) Rᵀ and four colour coefficients, computed by a tiled kernel on rows of nine and
  three numbers, against the same two results computed by whole-array contractions and slices: equal as extended
  reals, entry by entry, on every input.

  Both programs return four arrays: the positions untouched, the covariances, the alphas untouched, the coefficients.
  `PointMath` states what one point's covariance and coefficients are; `ArrayMath` states them for all points at
  once, in both layouts of a 3×3 matrix per point, and that the layouts agree. `BlockCov` and `BlockSh` read what
  the kernel's body leaves in one block, `KernelValue` carries that over the 400 blocks and through the relayouts
  around the region to the kernel program's four results, and `RefValue` reads the reference's contractions and
  concatenation as the same two functions. The only law that joins the two sides is that a product of two extended
  reals does not depend on the order of its factors, so no entry has to be finite: the precondition is never opened.

  The three frame claims are the generated frame runs (for the reference, its generated run with the results
  dropped); the idealization rewrote nothing, so there is nothing to preserve.
-/
import proofs.«129054_j12000138625130_2_alg».proof.Defs
import proofs.«129054_j12000138625130_2_alg».proof.Proof.Gen.Kernel
import proofs.«129054_j12000138625130_2_alg».proof.Proof.Gen.Kernel.Skeleton
import proofs.«129054_j12000138625130_2_alg».proof.Proof.Gen.Kernel.Launch
import proofs.«129054_j12000138625130_2_alg».proof.Proof.Gen.Kernel.Points
import proofs.«129054_j12000138625130_2_alg».proof.Proof.Gen.Kernel.Frame
import proofs.«129054_j12000138625130_2_alg».proof.Proof.Gen.KernelIdeal
import proofs.«129054_j12000138625130_2_alg».proof.Proof.Gen.KernelIdeal.Skeleton
import proofs.«129054_j12000138625130_2_alg».proof.Proof.Gen.KernelIdeal.Launch
import proofs.«129054_j12000138625130_2_alg».proof.Proof.Gen.KernelIdeal.Points
import proofs.«129054_j12000138625130_2_alg».proof.Proof.Gen.KernelIdeal.Frame
import proofs.«129054_j12000138625130_2_alg».proof.Proof.Gen.ReferenceIdeal
import proofs.«129054_j12000138625130_2_alg».proof.Proof.Gen.ReferenceIdeal.Run
import proofs.«129054_j12000138625130_2_alg».proof.Proof.Gen.ReferenceIdeal.Read
import proofs.«129054_j12000138625130_2_alg».proof.Proof.Gen.Pre_finite_inputs
import proofs.«129054_j12000138625130_2_alg».proof.Proof.ArrayMath
import proofs.«129054_j12000138625130_2_alg».proof.Proof.KernelValue
import proofs.«129054_j12000138625130_2_alg».proof.Proof.RefValue
import Idealize.ShloMosaic.Adequacy
import Idealize.ShloMosaic.Init

noncomputable section

namespace Cert.Proof

open Idealize.ShloMosaic Idealize.ShloMosaic.TcCoe Idealize.SL.Sem Cert.ArrayMath

/-- The kernel's program as printed runs to the end and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the idealized reference: its run with the results forgotten. -/
theorem frame_referenceIdeal : Cert.frame_ReferenceIdeal := fun m ρ _ =>
  (θ_run Cert.ReferenceIdeal.defs _ _).mono (fun _ h c => (h c).2.2.2.2)
    (Cert.ReferenceIdeal.Value.run (F := Ideal) m ρ)

/-- The idealization rewrote no operation. -/
theorem preserves : Cert.preserves_Kernel_KernelIdeal := trivial

/-- From memories that agree on the five arguments both idealized programs end with the positions, every point's
    covariance of R and S, the alphas, and every point's colour coefficients: the kernel's program by
    `KernelValue.run`, the reference by its generated run, whose two computed results are those same functions
    (`RefValue.cov_eq`, `RefValue.sh_eq`) of arguments that agree. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => covMats (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => m ((c.tc : Thread Cert.KernelIdeal.nD Cert.KernelIdeal.τ).loc Cert.KernelIdeal.main_arg2),
    fun c => shRows (m ((c.tc : Thread Cert.KernelIdeal.nD Cert.KernelIdeal.τ).loc Cert.KernelIdeal.main_arg1)),
    Cert.KernelIdeal.Arrays.run m ρ, ?_⟩
  refine (θ_run Cert.ReferenceIdeal.defs _ _).mono (fun _ h c => ?_)
    (Cert.ReferenceIdeal.Value.run (F := Ideal) m' ρ')
  obtain ⟨a0, a1, a2, a3, a4⟩ := hagree c
  obtain ⟨r0, r1, r2, r3, k0, k1, k2, k3, k4⟩ := h c
  refine ⟨r0.trans a0, r1.trans ?_, r2.trans a2, r3.trans ?_, k0, k1, k2, k3, k4⟩
  · rw [Cert.ReferenceIdeal.Read.val_main_v2_eq, Cert.ReferenceIdeal.RefValue.cov_eq, a3, a4]
  · rw [Cert.ReferenceIdeal.Read.val_main_v14_eq, Cert.ReferenceIdeal.RefValue.sh_eq, a1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
